-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S_ : Shape := ⟨0, ![]⟩

class Facts : Prop where
  bcast_S_S64x1024x6 : S_.BroadcastsInDim S64x1024x6 (![] : Fin 0 → Fin S64x1024x6.rank)
  reducesTo_S64x1024x6_S_d0_1_2 : S64x1024x6.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512x6 : S_.BroadcastsInDim S512x6 (![] : Fin 0 → Fin S512x6.rank)
  reducesTo_S512x6_S_d0_1 : S512x6.ReducesTo [0, 1] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S64x1024x6 .f32) (main_arg1 : FVec F S512x512 .f32) (main_arg2 : FVec F S512x6 .f32) (main_arg3 : FVec F S64x1024x512 .f32) : IVec S_ 1 :=
  let main_v0 : FVec F S64x1024x6 .f32 := Host.absf main_arg0
  let main_cst : FVec F S_ .f32 := constant S_ .f32 0x7F800000#32
  let main_v1 : FVec F S64x1024x6 .f32 := broadcastInDim S64x1024x6 ![] bcast_S_S64x1024x6 main_cst
  let main_v2 : IVec S64x1024x6 1 := cmpf .olt main_v0 main_v1
  let main_c : IVec S_ 1 := constantI S_ 1 1#1
  let main_v3 : IVec S_ 1 := (fun x v => Host.reduce IntOp.andi x v reducesTo_S64x1024x6_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x6 .f32 := Host.absf main_arg2
  let main_cst_2 : FVec F S_ .f32 := constant S_ .f32 0x7F800000#32
  let main_v10 : FVec F S512x6 .f32 := broadcastInDim S512x6 ![] bcast_S_S512x6 main_cst_2
  let main_v11 : IVec S512x6 1 := cmpf .olt main_v9 main_v10
  let main_c_3 : IVec S_ 1 := constantI S_ 1 1#1
  let main_v12 : IVec S_ 1 := (fun x v => Host.reduce IntOp.andi x v reducesTo_S512x6_S_d0_1 h_S_) main_v11 main_c_3
  let main_v13 : IVec S_ 1 := andi main_v8 main_v12
  let main_v14 : FVec F S64x1024x512 .f32 := Host.absf main_arg3
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S6x512 : Shape := ⟨2, ![6, 512]⟩
abbrev S2x1024x6 : Shape := ⟨3, ![2, 1024, 6]⟩
abbrev S2x1024x512 : Shape := ⟨3, ![2, 1024, 512]⟩
abbrev S1x1024x6 : Shape := ⟨3, ![1, 1024, 6]⟩
abbrev S1024x6 : Shape := ⟨2, ![1024, 6]⟩
abbrev S1024x512 : Shape := ⟨2, ![1024, 512]⟩
abbrev S1x1024x512 : Shape := ⟨3, ![1, 1024, 512]⟩
abbrev S1x512 : Shape := ⟨2, ![1, 512]⟩
abbrev S1x1x512 : Shape := ⟨3, ![1, 1, 512]⟩

abbrev nBuf : Space → Nat
  | .hbm => 6
  | .vmem => 7
  | .smem => 0
  | _ => 0

abbrev bufTy : (tb : Table) → Fin (tcTables nBuf tb) → BufTy
  | .hbm, ⟨0, _⟩ => ⟨S64x1024x6, .f32⟩
  | .hbm, ⟨1, _⟩ => ⟨S512x512, .f32⟩
  | .hbm, ⟨2, _⟩ => ⟨S512x6, .f32⟩
  | .hbm, ⟨3, _⟩ => ⟨S64x1024x512, .f32⟩
  | .hbm, ⟨4, _⟩ => ⟨S6x512, .f32⟩
  | .hbm, ⟨5, _⟩ => ⟨S64x1024x512, .f32⟩
  | .local _ .vmem, ⟨0, _⟩ => ⟨S2x1024x6, .f32⟩
  | .local _ .vmem, ⟨1, _⟩ => ⟨S2x1024x6, .f32⟩
  | .local _ .vmem, ⟨2, _⟩ => ⟨S6x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x512, .f32⟩
  | _, _ => ⟨S64x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x6_S6x512_1_0 : S512x6.Transposes [1, 0] S6x512
  inb_S6x512_S6x512_0_0 : ∀ a, (![0, 0] : Fin 2 → Nat) a + S6x512.size a ≤ S6x512.size a
  h_S6x512 : 0 < S6x512.numel
  shapeCasts_S6x512_S6x512 : S6x512.ShapeCasts S6x512
  bitsLt_bf16_f32 : FTy.bits .bf16 < FTy.bits .f32
  inb_S2x1024x6_S1x1024x6_0_0_0 : ∀ a, (![0, 0, 0] : Fin 3 → Nat) a + S1x1024x6.size a ≤ S2x1024x6.size a
  h_S1x1024x6 : 0 < S1x1024x6.numel
  shapeCasts_S1x1024x6_S1024x6 : S1x1024x6.ShapeCasts S1024x6
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S2x1024x6_S1x1024x6_1_0_0 : ∀ a, (![1, 0, 0] : Fin 3 → Nat) a + S1x1024x6.size a ≤ S2x1024x6.size a
  inb_S2x1024x512_S1x1024x512_1_0_0 : ∀ a, (![1, 0, 0] : Fin 3 → Nat) a + S1x1024x512.size a ≤ S2x1024x512.size a
  inb_S2x1024x512_S1x1x512_0_0_0 : ∀ a, (![0, 0, 0] : Fin 3 → Nat) a + S1x1x512.size a ≤ S2x1024x512.size a
  h_S1x1x512 : 0 < S1x1x512.numel
  shapeCasts_S1x1x512_S1x512 : S1x1x512.ShapeCasts S1x512
  shapeCasts_S1x512_S1x1x512 : S1x512.ShapeCasts S1x1x512
  inb_S2x1024x512_S1x1x512_1_0_0 : ∀ a, (![1, 0, 0] : Fin 3 → Nat) a + S1x1x512.size a ≤ S2x1024x512.size a
  dot_S1024x6_S6x512_S1024x512_1_0_0_1_n_n_wf : DotDims.WF S1024x6 S6x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x6.size a ≤ S64x1024x6.size a
  hwx0_0 : ∀ i : grid0.Coords, EltTy.bits .f32 = 32 ∨ (Rect.block (s := S64x1024x6) S2x1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x512.size a ≤ S6x512.size a
  hwx0_1 : ∀ i : grid0.Coords, EltTy.bits .f32 = 32 ∨ (Rect.block (s := S6x512) S6x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S64x1024x512.size a
  hwx0_2 : ∀ i : grid0.Coords, EltTy.bits .f32 = 32 ∨ (Rect.block (s := S64x1024x512) S2x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x512.size a ≤ S64x1024x512.size a
  hwx0_3 : ∀ i : grid0.Coords, EltTy.bits .f32 = 32 ∨ (Rect.block (s := S64x1024x512) S2x1024x512.size (cc0_transform_3 i) (hinb0_3 i)).WholeWords (EltTy.packing .f32)

variable [Facts₀]

def dot_S1024x6_S6x512_S1024x512_1_0_0_1_n_n : DotDims S1024x6 S6x512 S1024x512 where
  lhsContracting := [1]
  rhsContracting := [0]
  lhsNonContracting := [0]
  rhsNonContracting := [1]
  lhsBatch := []
  rhsBatch := []
  wf := dot_S1024x6_S6x512_S1024x512_1_0_0_1_n_n_wf

abbrev win0_0 : Pipeline.Window sig grid0 :=
  Pipeline.Window.ofSpec (Memref.whole main_arg0) S2x1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S_ : Shape := ⟨0, ![]⟩
abbrev S1 : Shape := ⟨1, ![1]⟩
abbrev S64x512 : Shape := ⟨2, ![64, 512]⟩

abbrev nBuf : Space → Nat
  | .hbm => 17
  | .vmem => 0
  | .smem => 0
  | _ => 0

abbrev bufTy : (tb : Table) → Fin (tcTables nBuf tb) → BufTy
  | .hbm, ⟨0, _⟩ => ⟨S64x1024x6, .f32⟩
  | .hbm, ⟨1, _⟩ => ⟨S512x512, .f32⟩
  | .hbm, ⟨2, _⟩ => ⟨S512x6, .f32⟩
  | .hbm, ⟨3, _⟩ => ⟨S64x1024x512, .f32⟩
  | .hbm, ⟨4, _⟩ => ⟨S64x1024x512, .f32⟩
  | .hbm, ⟨5, _⟩ => ⟨S64x1024x512, .f32⟩
  | .hbm, ⟨6, _⟩ => ⟨S_, .f32⟩
  | .hbm, ⟨7, _⟩ => ⟨S64x1024x512, .f32⟩
  | .hbm, ⟨8, _⟩ => ⟨S64x1024x512, .f32⟩
  | .hbm, ⟨9, _⟩ => ⟨S_, .f32⟩
  | .hbm, ⟨10, _⟩ => ⟨S64x1024x512, .f32⟩
  | .hbm, ⟨11, _⟩ => ⟨S64x1024x512, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S64x512, .f32⟩
  | .hbm, ⟨16, _⟩ => ⟨S64x1024x512, .f32⟩
  | _, _ => ⟨S64x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S64x1024x512 : S_.BroadcastsInDim S64x1024x512 (![] : Fin 0 → Fin S64x1024x512.rank)
  bcast_S_S1 : S_.BroadcastsInDim S1 (![] : Fin 0 → Fin S1.rank)
  bcast_S_S64x512 : S_.BroadcastsInDim S64x512 (![] : Fin 0 → Fin S64x512.rank)
  dot_S64x1024x6_S512x6_S64x1024x512_2_1_01_0_n_n_wf : DotDims.WF S64x1024x6 S512x6 S64x1024x512 [2] [1] [0, 1] [0] [] []
  scatter_S64x1024x512_S1_S64x512_01_1_1_0_wf : ScatterDims.WF S64x1024x512 S1 S64x512 [0, 1] [1] [1] 0

variable [Facts₀]

def dot_S64x1024x6_S512x6_S64x1024x512_2_1_01_0_n_n : DotDims S64x1024x6 S512x6 S64x1024x512 where
  lhsContracting := [2]
  rhsContracting := [1]
  lhsNonContracting := [0, 1]
  rhsNonContracting := [0]
  lhsBatch := []
  rhsBatch := []
  wf := dot_S64x1024x6_S512x6_S64x1024x512_2_1_01_0_n_n_wf
def scatter_S64x1024x512_S1_S64x512_01_1_1_0 : ScatterDims S64x1024x512 S1 S64x512 where
  updateWindowDims := [0, 1]
  insertedWindowDims := [1]
  scatterDimsToOperandDims := [1]
  indexVectorDim := 0
  wf := scatter_S64x1024x512_S1_S64x512_01_1_1_0_wf

class Facts : Prop extends Facts₀ where

variable [Facts]
-- ==== Proof.KernelCell.lean ====
/-
  The kernel body's arithmetic, read at one element.

  The body handles the two batches of its block one after the other, with the same arithmetic: the [1024, 6] slab
  of `u` times the [6, 512] transposed weights (a product into a zero accumulator, so just the six-term sum), plus
  the slab of noise, rectified and scaled by α. The casts to bf16 are the identity on extended reals, the shape
  casts only drop or add the block's unit batch axis. So the [1, 1024, 512] slab the body stores holds, at (·, r, n),

      α · max (∑ₖ u_slab[0, r, k] · wT[k, n] + noise_slab[0, r, n], 0).

  The row the body stores last over time 0 is a row of zeros.
-/
import proofs.«162567_j27453430956109_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Cell

open Cert.KernelIdeal Cert.KernelIdeal.Gen
open Idealize.ShloMosaic Idealize.ShloMosaic.ValueIdx

local notation "dotK" => dot_S1024x6_S6x512_S1024x512_1_0_0_1_n_n

/-! ## The matrix product at an index -/

theorem lhs_0 (i : S1024x512.Idx) (q : (DotDims.contr dotK).Idx) : (DotDims.lhsIdx dotK i q 0).val = (i 0).val := by
  unfold DotDims.lhsIdx
  rw [dif_neg (show ¬(0 : Fin S1024x6.rank) ∈ DotDims.lhsBatch dotK by decide),
    dif_pos (show (0 : Fin S1024x6.rank) ∈ DotDims.lhsNonContracting dotK by decide)]
  rfl
theorem lhs_1 (i : S1024x512.Idx) (q : (DotDims.contr dotK).Idx) :
    (DotDims.lhsIdx dotK i q 1).val = (q ⟨0, by decide⟩).val :=
  DotDims.lhsIdx_val_of_single dotK rfl i q
theorem rhs_0 (i : S1024x512.Idx) (q : (DotDims.contr dotK).Idx) :
    (DotDims.rhsIdx dotK i q 0).val = (q ⟨0, by decide⟩).val :=
  DotDims.rhsIdx_val_of_single dotK rfl i q
theorem rhs_1 (i : S1024x512.Idx) (q : (DotDims.contr dotK).Idx) : (DotDims.rhsIdx dotK i q 1).val = (i 1).val := by
  unfold DotDims.rhsIdx
  rw [dif_neg (show ¬(1 : Fin S6x512.rank) ∈ DotDims.rhsBatch dotK by decide),
    dif_pos (show (1 : Fin S6x512.rank) ∈ DotDims.rhsNonContracting dotK by decide)]
  rfl

/-- The [1024, 6] × [6, 512] product into a zero accumulator, at (r, n): the sum over the six input features. -/
theorem matmul_read (a : FVec Ideal S1024x6 .bf16) (b : FVec Ideal S6x512 .bf16) (r : Fin 1024) (n : Fin 512) :
    matmul dotK none a b (constant (F := Ideal) S1024x512 .f32 0x00000000#32) (ix2 r n)
      = ∑ k : Fin 6, a (ix2 r k) * b (ix2 k n) := by
  simp only [matmul]
  rw [Ideal.matmul_constant_zero_apply, ← Equiv.sum_comp (contrEquiv1 dotK 6 rfl rfl).symm]
  refine Finset.sum_congr rfl fun k _ => ?_
  have hk := contrEquiv1_symm_val dotK 6 rfl rfl k
  have el : DotDims.lhsIdx dotK (ix2 r n) ((contrEquiv1 dotK 6 rfl rfl).symm k) = ix2 r k :=
    funext fun a => Fin.ext (by
      match a with
      | ⟨0, _⟩ => exact lhs_0 _ _
      | ⟨1, _⟩ => exact (lhs_1 _ _).trans hk)
  have er : DotDims.rhsIdx dotK (ix2 r n) ((contrEquiv1 dotK 6 rfl rfl).symm k) = ix2 k n :=
    funext fun a => Fin.ext (by
      match a with
      | ⟨0, _⟩ => exact (rhs_0 _ _).trans hk
      | ⟨1, _⟩ => exact rhs_1 _ _)
  rw [el, er]

/-! ## The slab the body stores for one batch of the block -/

/-- The stored slab as one expression of the three loads. -/
theorem slab_unfold (v0 : Vec Ideal S6x512 .f32) (v3 : Vec Ideal S1x1024x6 .f32) (v7 : Vec Ideal S1x1024x512 .f32) :
    k0_pay5 (F := Ideal) v0 v3 v7
      = shapeCast S1x1024x512
          (mulf (broadcast S1024x512 (Scalar.ofBits (F := Ideal) .f32 0x3E4CCCCD#32))
            (maximumf
              (addf
                (matmul dotK none (truncf .bf16 (shapeCast S1024x6 v3 shapeCasts_S1x1024x6_S1024x6) bitsLt_bf16_f32)
                  (truncf .bf16 (shapeCast S6x512 v0 shapeCasts_S6x512_S6x512) bitsLt_bf16_f32)
                  (constant (F := Ideal) S1024x512 .f32 0x00000000#32))
                (shapeCast S1024x512 v7 shapeCasts_S1x1024x512_S1024x512))
              (broadcast S1024x512 (Scalar.ofBits (F := Ideal) .f32 0x00000000#32))))
          shapeCasts_S1024x512_S1x1024x512 := rfl

/-- The second batch's slab is the same expression of its own loads. -/
theorem slab_second (v0 : Vec Ideal S6x512 .f32) (v17 : Vec Ideal S1x1024x6 .f32) (v21 : Vec Ideal S1x1024x512 .f32) :
    k0_pay6 (F := Ideal) v0 v17 v21 = k0_pay5 (F := Ideal) v0 v17 v21 := rfl

/-- THE SLAB AT (z, r, n): α · max (∑ₖ u[0, r, k] · wT[k, n] + noise[0, r, n], 0). -/
theorem slab_read (v0 : Vec Ideal S6x512 .f32) (v3 : Vec Ideal S1x1024x6 .f32) (v7 : Vec Ideal S1x1024x512 .f32)
    (z : Fin 1) (r : Fin 1024) (n : Fin 512) :
    k0_pay5 (F := Ideal) v0 v3 v7 (ix3 z r n)
      = Ideal.ofBits .f32 0x3E4CCCCD#32 *
          max ((∑ k : Fin 6, v3 (ix3 (0 : Fin 1) r k) * v0 (ix2 k n)) + v7 (ix3 (0 : Fin 1) r n))
            (Ideal.ofBits .f32 0x00000000#32) := by
  have hz : z.val = 0 := by omega
  rw [slab_unfold]
  rw [shapeCast_apply _ shapeCasts_S1024x512_S1x1024x512 (ix3 z r n) (ix2 r n) (by
    rw [Shape.rowMajor_val_two, Shape.rowMajor_val_three]
    show r.val * 512 + n.val = (z.val * 1024 + r.val) * 512 + n.val
    rw [hz]; omega)]
  show Ideal.ofBits .f32 0x3E4CCCCD#32 *
      max (matmul dotK none (truncf .bf16 (shapeCast S1024x6 v3 shapeCasts_S1x1024x6_S1024x6) bitsLt_bf16_f32)
            (truncf .bf16 (shapeCast S6x512 v0 shapeCasts_S6x512_S6x512) bitsLt_bf16_f32)
            (constant (F := Ideal) S1024x512 .f32 0x00000000#32) (ix2 r n)
          + shapeCast S1024x512 v7 shapeCasts_S1x1024x512_S1024x512 (ix2 r n))
        (Ideal.ofBits .f32 0x00000000#32) = _
  rw [matmul_read, shapeCast_apply v7 shapeCasts_S1x1024x512_S1024x512 (ix2 r n) (ix3 (0 : Fin 1) r n) (by
    rw [Shape.rowMajor_val_two, Shape.rowMajor_val_three]
    show ((0 : Fin 1).val * 1024 + r.val) * 512 + n.val = r.val * 512 + n.val
    simp)]
  refine congrArg (fun s => Ideal.ofBits .f32 0x3E4CCCCD#32 * max (s + v7 (ix3 (0 : Fin 1) r n)) (Ideal.ofBits .f32 0x00000000#32))
    (Finset.sum_congr rfl fun k _ => ?_)
  show shapeCast S1024x6 v3 shapeCasts_S1x1024x6_S1024x6 (ix2 r k) * shapeCast S6x512 v0 shapeCasts_S6x512_S6x512 (ix2 k n) = _
  rw [shapeCast_apply v3 shapeCasts_S1x1024x6_S1024x6 (ix2 r k) (ix3 (0 : Fin 1) r k) (by
    rw [Shape.rowMajor_val_two, Shape.rowMajor_val_three]
    show ((0 : Fin 1).val * 1024 + r.val) * 6 + k.val = r.val * 6 + k.val
    simp), shapeCast_self]

/-! ## The row of zeros stored over time 0 -/

theorem zero_row_read (x : S1x1x512.Idx) : k0_pay2 (F := Ideal) x = Ideal.ofBits .f32 0x00000000#32 := by
  show shapeCast S1x1x512 (broadcast S1x512 (Scalar.ofBits (F := Ideal) .f32 0x00000000#32)) shapeCasts_S1x512_S1x1x512 x = _
  unfold shapeCast
  rfl

theorem zero_row_second : k0_pay3 (F := Ideal) = k0_pay2 (F := Ideal) := rfl

end Cert.KernelIdeal.Cell

end
-- ==== Proof.KernelBlock.lean ====
/-
  What the body leaves in the output's [2, 1024, 512] staging buffer, read at one element.

  The body makes four stores into the buffer, in this order: the whole slab of batch 0, the whole slab of batch 1,
  then a row of zeros over time 0 of batch 0 and a row of zeros over time 0 of batch 1. A later store hides an earlier
  one where they overlap, so an element at time 0 reads a zero and an element at a later time reads its batch's slab.
  With the slab's arithmetic read at an element (the cell module), the buffer at (b, r, n) holds

      0                                                                      when r = 0
      α · max (∑ₖ u_blk[b, r, k] · wT[k, n] + noise_blk[b, r, n], 0)         when r ≥ 1

  where `u_blk`, `wT`, `noise_blk` are the three input blocks the body loads from.
-/
import proofs.«162567_j27453430956109_2_alg».proof.Proof.Gen.KernelIdeal.Frame
import proofs.«162567_j27453430956109_2_alg».proof.Proof.KernelCell
import Idealize.ShloMosaic.Lib.WritesUnit

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx

/-! ## Four overlapping stores, newest first -/

section Stores

variable {sg : RefSig} {κ : Kind} {sp : Space} {e : EltTy} {Val : EltTy → Type}

/-- A [2, 1024, 512] buffer after: slab 0, slab 1, row (0, 0, ·), row (1, 0, ·) — listed newest first. At time 0 an
    element reads the row stored over it, at a later time its batch's slab. -/
theorem read_stores (v : View sg κ sp S2x1024x512 e) (f : v.ty.Contents Val)
    (inb1 : ∀ a, (![1, 0, 0] : Fin 3 → Nat) a + S1x1x512.size a ≤ S2x1024x512.size a)
    (inb2 : ∀ a, (![0, 0, 0] : Fin 3 → Nat) a + S1x1x512.size a ≤ S2x1024x512.size a)
    (inb3 : ∀ a, (![1, 0, 0] : Fin 3 → Nat) a + S1x1024x512.size a ≤ S2x1024x512.size a)
    (inb4 : ∀ a, (![0, 0, 0] : Fin 3 → Nat) a + S1x1024x512.size a ≤ S2x1024x512.size a)
    (w1 w2 : S1x1x512.Idx → Val e) (w3 w4 : S1x1024x512.Idx → Val e) (b : Fin 2) (r : Fin 1024) (n : Fin 512) :
    v.read Val (v.writes Val f
        [⟨Rect.unit ![1, 0, 0] S1x1x512.size inb1, w1⟩, ⟨Rect.unit ![0, 0, 0] S1x1x512.size inb2, w2⟩,
         ⟨Rect.unit ![1, 0, 0] S1x1024x512.size inb3, w3⟩, ⟨Rect.unit ![0, 0, 0] S1x1024x512.size inb4, w4⟩]) (ix3 b r n)
      = if r.val = 0 then (if b.val = 0 then w2 (ix3 (0 : Fin 1) (0 : Fin 1) n) else w1 (ix3 (0 : Fin 1) (0 : Fin 1) n))
        else (if b.val = 0 then w4 (ix3 (0 : Fin 1) r n) else w3 (ix3 (0 : Fin 1) r n)) := by
  have hb : b.val = 0 ∨ b.val = 1 := by omega
  by_cases hr : r.val = 0
  · rw [if_pos hr]
    rcases hb with hb | hb
    · rw [if_pos hb]
      -- not under the newest row (it is batch 1's), under the next
      refine (View.read_writes_cons_unit_of_not_mem v f inb1 w1 _ (ix3 b r n) rfl 0 (.inl ?_)).trans ?_
      · show b.val < 1; omega
      refine View.read_writes_cons_unit_of_mem v f inb2 w2 _ (ix3 b r n) (ix3 (0 : Fin 1) (0 : Fin 1) n) rfl (fun a => ?_)
      match a with
      | ⟨0, _⟩ => show b.val = 0 + 0; omega
      | ⟨1, _⟩ => show r.val = 0 + 0; omega
      | ⟨2, _⟩ => show n.val = 0 + n.val; omega
    · rw [if_neg (by omega)]
      refine View.read_writes_cons_unit_of_mem v f inb1 w1 _ (ix3 b r n) (ix3 (0 : Fin 1) (0 : Fin 1) n) rfl (fun a => ?_)
      match a with
      | ⟨0, _⟩ => show b.val = 1 + 0; omega
      | ⟨1, _⟩ => show r.val = 0 + 0; omega
      | ⟨2, _⟩ => show n.val = 0 + n.val; omega
  · rw [if_neg hr]
    -- a later time is under neither row
    refine (View.read_writes_cons_unit_of_not_mem v f inb1 w1 _ (ix3 b r n) rfl 1 (.inr ?_)).trans ?_
    · show 0 + 1 ≤ r.val; omega
    refine (View.read_writes_cons_unit_of_not_mem v f inb2 w2 _ (ix3 b r n) rfl 1 (.inr ?_)).trans ?_
    · show 0 + 1 ≤ r.val; omega
    rcases hb with hb | hb
    · rw [if_pos hb]
      refine (View.read_writes_cons_unit_of_not_mem v f inb3 w3 _ (ix3 b r n) rfl 0 (.inl ?_)).trans ?_
      · show b.val < 1; omega
      refine View.read_writes_cons_unit_of_mem v f inb4 w4 _ (ix3 b r n) (ix3 (0 : Fin 1) r n) rfl (fun a => ?_)
      match a with
      | ⟨0, _⟩ => show b.val = 0 + 0; omega
      | ⟨1, _⟩ => show r.val = 0 + r.val; omega
      | ⟨2, _⟩ => show n.val = 0 + n.val; omega
    · rw [if_neg (by omega)]
      refine View.read_writes_cons_unit_of_mem v f inb3 w3 _ (ix3 b r n) (ix3 (0 : Fin 1) r n) rfl (fun a => ?_)
      match a with
      | ⟨0, _⟩ => show b.val = 1 + 0; omega
      | ⟨1, _⟩ => show r.val = 0 + r.val; omega
      | ⟨2, _⟩ => show n.val = 0 + n.val; omega

end Stores

/-! ## The body's result block at an element -/

theorem hz2 : (![0, 0] : Fin 2 → Nat) = fun _ => 0 := funext fun a => by fin_cases a <;> rfl

/-- A load of batch `b`'s slab of a block, at (0, r, k), is the block at (b, r, k). -/
theorem ld_slab {d2 : Nat} (x : Vec Ideal (⟨3, ![2, 1024, d2]⟩ : Shape) .f32) (o : Nat) (b : Fin 2) (hb : b.val = o)
    (inb : ∀ a, (![o, 0, 0] : Fin 3 → Nat) a + (⟨3, ![1, 1024, d2]⟩ : Shape).size a ≤ (⟨3, ![2, 1024, d2]⟩ : Shape).size a)
    (r : Fin 1024) (k : Fin d2) :
    View.ld (Val := Elt Ideal) (e' := .f32) x (Rect.unit ![o, 0, 0] (⟨3, ![1, 1024, d2]⟩ : Shape).size inb) (ix3 (0 : Fin 1) r k)
      = x (ix3 b r k) :=
  congrArg x (funext fun a => Fin.ext (by
    match a with
    | ⟨0, _⟩ => show o + 1 * 0 = b.val; omega
    | ⟨1, _⟩ => show 0 + 1 * r.val = r.val; omega
    | ⟨2, _⟩ => show 0 + 1 * k.val = k.val; omega))

/-- THE RESULT BLOCK AT (b, r, n), over the three input blocks `x0` (of `u`), `x1` (the transposed weights) and
    `x2` (of the noise): zero at time 0, the cell's value at a later time. -/
theorem block_read (c : Dev nD) (i : grid0.Coords) (arg1 : Memref sig .tc .vmem S2x1024x6 .f32) (harg1 : arg1.IsWhole)
    (arg2 : Memref sig .tc .vmem S6x512 .f32) (harg2 : arg2.IsWhole) (arg3 : Memref sig .tc .vmem S2x1024x512 .f32)
    (harg3 : arg3.IsWhole) (arg4 : Memref sig .tc .vmem S2x1024x512 .f32) (harg4 : arg4.IsWhole)
    (x0 : Vec Ideal S2x1024x6 .f32) (x1 : Vec Ideal S6x512 .f32) (x2 : Vec Ideal S2x1024x512 .f32)
    (b : Fin 2) (r : Fin 1024) (n : Fin 512) :
    out0_A_3 (F := Ideal) c i arg1 harg1 arg2 harg2 arg3 harg3 arg4 harg4 x0 x1 x2 (ix3 b r n)
      = if r.val = 0 then Ideal.ofBits .f32 0x00000000#32
        else Ideal.ofBits .f32 0x3E4CCCCD#32 *
          max ((∑ k : Fin 6, x0 (ix3 b r k) * x1 (ix2 k n)) + x2 (ix3 b r n)) (Ideal.ofBits .f32 0x00000000#32) := by
  have hb : b.val = 0 ∨ b.val = 1 := by omega
  unfold out0_A_3 kernelRun0_A
  dsimp only
  simp only [View.readAt_eq_ld, harg1.read_unread, harg2.read_unread, harg3.read_unread]
  refine (read_stores _ _ _ _ _ _ _ _ _ _ b r n).trans ?_
  by_cases hr : r.val = 0
  · rw [if_pos hr, if_pos hr]
    rcases hb with hb | hb
    · rw [if_pos hb]; exact Cell.zero_row_read _
    · rw [if_neg (by omega), Cell.zero_row_second]; exact Cell.zero_row_read _
  · rw [if_neg hr, if_neg hr]
    have e1 : View.ld (Val := Elt Ideal) (e' := .f32) x1 (Rect.unit ![0, 0] S6x512.size inb_S6x512_S6x512_0_0) = x1 :=
      View.ld_unit_zero hz2 _ x1
    rcases hb with hb | hb
    · rw [if_pos hb, Cell.slab_read, e1, ld_slab x2 0 b hb _ r n]
      simp only [ld_slab x0 0 b hb _ r]
    · rw [if_neg (by omega), Cell.slab_second, Cell.slab_read, e1, ld_slab x2 1 b hb _ r n]
      simp only [ld_slab x0 1 b hb _ r]

end Cert.KernelIdeal.Block

end
-- ==== Proof.Spec.lean ====
/-
  The function both programs compute, index by index over the extended reals.

  Inputs: `u : [64, 1024, 6]` (batch, time, input feature), `w : [512, 6]` (unit, input feature) and
  `noise : [64, 1024, 512]` (batch, time, unit). The recurrent weights do not enter: the recurrence reads a
  state that is still zero, so every time step is independent of the others. The result at (b, t, n) is

      0                                                        when t = 0
      α · max (∑ₖ u[b, t, k] · w[n, k] + noise[b, t, n], 0)    when t ≥ 1

  with α the f32 nearest to 0.2 (the word `0x3E4CCCCD`, kept as a word: both programs carry the same one, so
  its value is never needed). The sum has six terms; on the extended reals addition and multiplication are
  commutative and associative, so the order of the six terms does not matter and no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- The shapes of the three arrays that matter and of the result. -/
abbrev SU : Shape := ⟨3, ![64, 1024, 6]⟩
abbrev SW : Shape := ⟨2, ![512, 6]⟩
abbrev SN : Shape := ⟨3, ![64, 1024, 512]⟩

/-- The scaled rectified pre-activation at an index of the result: α · max (⟨u[b, t, ·], w[n, ·]⟩ + noise[b, t, n], 0). -/
def cell (u : SU.Idx → EReal) (w : SW.Idx → EReal) (noise : SN.Idx → EReal) (i : SN.Idx) : EReal :=
  Ideal.ofBits .f32 0x3E4CCCCD#32 *
    max ((∑ k : Fin 6, u (ix3 (i 0) (i 1) k) * w (ix2 (i 2) k)) + noise i) (Ideal.ofBits .f32 0x00000000#32)

/-- The states: zero at time 0, the cell's value at every later time. -/
def states (u : SU.Idx → EReal) (w : SW.Idx → EReal) (noise : SN.Idx → EReal) : SN.Idx → EReal :=
  fun i => if (i 1).val = 0 then Ideal.ofBits .f32 0x00000000#32 else cell u w noise i

theorem states_zero (u : SU.Idx → EReal) (w : SW.Idx → EReal) (noise : SN.Idx → EReal) (i : SN.Idx)
    (h : (i 1).val = 0) : states u w noise i = Ideal.ofBits .f32 0x00000000#32 := if_pos h

theorem states_pos (u : SU.Idx → EReal) (w : SW.Idx → EReal) (noise : SN.Idx → EReal) (i : SN.Idx)
    (h : (i 1).val ≠ 0) : states u w noise i = cell u w noise i := if_neg h

end Cert.Spec

end
-- ==== Proof.KernelArray.lean ====
/-
  The kernel's result array is `Spec.states` of its arguments.

  The grid has 32 points; point `t` works on batches 2t and 2t + 1: its blocks of `u`, of the noise and of the
  result are rows [2t, 2t + 2) of the batch axis, whole on the other two axes, and the weights' block is the whole
  transposed array, which a host transpose wrote before the region (so its element (k, n) is the argument's (n, k)).
  The result block at (b, r, n) is therefore `Spec.states` at (2t + b, r, n): what point `t` writes back is block
  `t` of that one whole-array function. Every batch lies in exactly one point's block (batch `β` in point `β / 2`), so
  the blocks cover the array and it ends holding `Spec.states` everywhere.
-/
import proofs.«162567_j27453430956109_2_alg».proof.Proof.Gen.KernelIdeal.Value
import proofs.«162567_j27453430956109_2_alg».proof.Proof.KernelBlock
import proofs.«162567_j27453430956109_2_alg».proof.Proof.Spec
import Idealize.ShloMosaic.Lib.StableHlo.Run

set_option maxRecDepth 16384

noncomputable section

open scoped BigOperators

namespace Cert.KernelIdeal.ArrayValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-! ## One grid point, over plain arrays -/

/-- If the three input blocks are the arrays' rows [2q, 2q + 2) of the batch axis (the weights' block the whole
    transposed array), the result block at `y` is `Spec.states` at the array index `2q` batches further on. -/
theorem point_eq (X0 : Cert.Spec.SU.Idx → EReal) (W : Cert.Spec.SW.Idx → EReal) (X2 : Cert.Spec.SN.Idx → EReal)
    (c : Dev nD) (i : grid0.Coords) (arg1 : Memref sig .tc .vmem S2x1024x6 .f32) (harg1 : arg1.IsWhole)
    (arg2 : Memref sig .tc .vmem S6x512 .f32) (harg2 : arg2.IsWhole) (arg3 : Memref sig .tc .vmem S2x1024x512 .f32)
    (harg3 : arg3.IsWhole) (arg4 : Memref sig .tc .vmem S2x1024x512 .f32) (harg4 : arg4.IsWhole)
    (x0 : Vec Ideal S2x1024x6 .f32) (x1 : Vec Ideal S6x512 .f32) (x2 : Vec Ideal S2x1024x512 .f32) (q : Nat)
    (h0 : ∀ (b : Fin 2) (r : Fin 1024) (k : Fin 6) (i' : Cert.Spec.SU.Idx),
      (i' 0).val = q * 2 + b.val → (i' 1).val = r.val → (i' 2).val = k.val → x0 (ix3 b r k) = X0 i')
    (h1 : ∀ (k : Fin 6) (n : Fin 512) (j : Cert.Spec.SW.Idx), (j 0).val = n.val → (j 1).val = k.val → x1 (ix2 k n) = W j)
    (h2 : ∀ (b : Fin 2) (r : Fin 1024) (n : Fin 512) (i' : Cert.Spec.SN.Idx),
      (i' 0).val = q * 2 + b.val → (i' 1).val = r.val → (i' 2).val = n.val → x2 (ix3 b r n) = X2 i')
    (y : S2x1024x512.Idx) (i' : Cert.Spec.SN.Idx)
    (hi0 : (i' 0).val = q * 2 + (y 0).val) (hi1 : (i' 1).val = (y 1).val) (hi2 : (i' 2).val = (y 2).val) :
    out0_A_3 (F := Ideal) c i arg1 harg1 arg2 harg2 arg3 harg3 arg4 harg4 x0 x1 x2 y = Cert.Spec.states X0 W X2 i' := by
  obtain ⟨b, r, n, rfl⟩ : ∃ (b : Fin 2) (r : Fin 1024) (n : Fin 512), y = ix3 b r n := ⟨y 0, y 1, y 2, eq_ix3 y⟩
  have hi0' : (i' 0).val = q * 2 + b.val := hi0
  have hi1' : (i' 1).val = r.val := hi1
  have hi2' : (i' 2).val = n.val := hi2
  rw [Block.block_read]
  by_cases hr : r.val = 0
  · rw [if_pos hr, Cert.Spec.states_zero X0 W X2 i' (hi1'.trans hr)]
  · rw [if_neg hr, Cert.Spec.states_pos X0 W X2 i' (fun h => hr (hi1'.symm.trans h))]
    unfold Cert.Spec.cell
    rw [h2 b r n i' hi0' hi1' hi2']
    refine congrArg (fun s => Ideal.ofBits .f32 0x3E4CCCCD#32 * max (s + X2 i') (Ideal.ofBits .f32 0x00000000#32))
      (Finset.sum_congr rfl fun k _ => ?_)
    rw [h0 b r k (ix3 (i' 0) (i' 1) k) hi0' hi1' rfl, h1 k n (ix2 (i' 2) k) hi2' rfl]

variable (m : (ℓ : Loc nD τ sig) → Buf (Elt Ideal) ℓ) (ρ : Dev nD → PrngReg)

/-! ## The transposed weights the region finds -/

/-- The host operation before the region wrote the transposed weights. -/
theorem weights_T (c : Dev nD) :
    (V m c main_v0 : S6x512.Idx → EReal)
      = transpose S6x512 [1, 0] (m ((c : Thread nD τ).loc main_arg2)) transposes_S512x6_S6x512_1_0 := by
  dsimp only [Gen.V, Gen.hostOps0]
  after_results <;> rfl

/-- Element (k, n) of the transposed weights is element (n, k) of the argument. -/
theorem weights_T_apply (c : Dev nD) (k : Fin 6) (n : Fin 512) (j : Cert.Spec.SW.Idx) (hj0 : (j 0).val = n.val)
    (hj1 : (j 1).val = k.val) : (V m c main_v0 : S6x512.Idx → EReal) (ix2 k n) = m ((c : Thread nD τ).loc main_arg2) j := by
  rw [weights_T]
  exact transpose_apply _ _ _ (ix2 k n) j (fun b => match b with | ⟨0, _⟩ => hj1 | ⟨1, _⟩ => hj0)

/-! ## The printed index maps over the grid -/

/-- Point `t`'s block index is `t` on the batch axis and 0 elsewhere, for `u`, the noise and the result; the weights'
    block index is 0. Decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## What a point writes back -/

/-- WHAT POINT `t` WRITES BACK is block `t` of `Spec.states` of the argument arrays. -/
theorem flushed_eq (c : Dev nD) (t : Fin cfg0.N) :
    (dats m 0 c).flushed 3 t = ((cfg0.win 3).blk t).view.read (Elt Ideal)
      (Cert.Spec.states (m ((c : Thread nD τ).loc main_arg0)) (m ((c : Thread nD τ).loc main_arg2))
        (m ((c : Thread nD τ).loc main_arg3))) := by
  rw [Value.flushed3_A]
  obtain ⟨e00, e01, e02, e10, e11, e20, e21, e22, e30, e31, e32⟩ := idx_facts t
  funext j
  refine point_eq (m ((c : Thread nD τ).loc main_arg0)) (m ((c : Thread nD τ).loc main_arg2)) (m ((c : Thread nD τ).loc main_arg3))
    c _ _ _ _ _ _ _ _ _ (iblk m c 0 t) (iblk m c 1 t) (iblk m c 2 t) t.val ?_ ?_ ?_ j (((cfg0.win 3).blk t).view.emb j) ?_ ?_ ?_
  · intro b r k i' h0 h1 h2
    show V m c main_arg0 (((cfg0.win 0).blk t).view.emb (ix3 b r k)) = _
    rw [V_main_arg0]
    refine congrArg _ (funext fun a => Fin.ext ?_)
    match a with
    | ⟨0, _⟩ => show win0_0.index t (0 : Fin 3) * 2 + 1 * b.val = (i' 0).val; omega
    | ⟨1, _⟩ => show win0_0.index t (1 : Fin 3) * 1024 + 1 * r.val = (i' 1).val; omega
    | ⟨2, _⟩ => show win0_0.index t (2 : Fin 3) * 6 + 1 * k.val = (i' 2).val; omega
  · intro k n j' hj0 hj1
    show V m c main_v0 (((cfg0.win 1).blk t).view.emb (ix2 k n)) = _
    have he : ((cfg0.win 1).blk t).view.emb (ix2 k n) = (ix2 k n : S6x512.Idx) := funext fun a => Fin.ext (by
      match a with
      | ⟨0, _⟩ => show win0_1.index t (0 : Fin 2) * 6 + 1 * k.val = k.val; omega
      | ⟨1, _⟩ => show win0_1.index t (1 : Fin 2) * 512 + 1 * n.val = n.val; omega)
    rw [he]
    exact weights_T_apply m c k n j' hj0 hj1
  · intro b r n i' h0 h1 h2
    show V m c main_arg3 (((cfg0.win 2).blk t).view.emb (ix3 b r n)) = _
    rw [V_main_arg3]
    refine congrArg _ (funext fun a => Fin.ext ?_)
    match a with
    | ⟨0, _⟩ => show win0_2.index t (0 : Fin 3) * 2 + 1 * b.val = (i' 0).val; omega
    | ⟨1, _⟩ => show win0_2.index t (1 : Fin 3) * 1024 + 1 * r.val = (i' 1).val; omega
    | ⟨2, _⟩ => show win0_2.index t (2 : Fin 3) * 512 + 1 * n.val = (i' 2).val; omega
  · show win0_3.index t (0 : Fin 3) * 2 + 1 * (j 0).val = t.val * 2 + (j 0).val; omega
  · show win0_3.index t (1 : Fin 3) * 1024 + 1 * (j 1).val = (j 1).val; omega
  · show win0_3.index t (2 : Fin 3) * 512 + 1 * (j 2).val = (j 2).val; omega

/-! ## The blocks cover the array -/

/-- An index is in point `t`'s block iff each coordinate is in the block's range on its axis. -/
theorem mem_blk (t : Fin cfg0.N) (i : S64x1024x512.Idx) :
    i ∈ ((cfg0.win 3).blk t).view.set ↔ ∀ a : Fin 3, win0_3.index t a * S2x1024x512.size a ≤ (i a).val
      ∧ (i a).val < win0_3.index t a * S2x1024x512.size a + S2x1024x512.size a := by
  show i ∈ ((View.whole main_v1).slice (win0_3.rect t)).set ↔ _
  rw [View.set_slice_whole, Rect.mem_set_unit]
  exact Iff.rfl

/-- Batch `β` lies in the block of point `β / 2`. -/
theorem cover (i : S64x1024x512.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 512 := (i 2).isLt
  have hN : (i 0).val / 2 < cfg0.N := by show _ < grid0.N; rw [N_0]; omega
  refine ⟨⟨(i 0).val / 2, hN⟩, flush0_3 _, ?_⟩
  rw [mem_blk]
  obtain ⟨-, -, -, -, -, -, -, -, e30, e31, e32⟩ := idx_facts ⟨(i 0).val / 2, hN⟩
  have e30' : win0_3.index ⟨(i 0).val / 2, hN⟩ (0 : Fin 3) = (i 0).val / 2 := e30
  intro a
  match a with
  | ⟨0, _⟩ =>
    show win0_3.index ⟨(i 0).val / 2, hN⟩ (0 : Fin 3) * 2 ≤ (i 0).val
      ∧ (i 0).val < win0_3.index ⟨(i 0).val / 2, hN⟩ (0 : Fin 3) * 2 + 2
    omega
  | ⟨1, _⟩ =>
    show win0_3.index ⟨(i 0).val / 2, hN⟩ (1 : Fin 3) * 1024 ≤ (i 1).val
      ∧ (i 1).val < win0_3.index ⟨(i 0).val / 2, hN⟩ (1 : Fin 3) * 1024 + 1024
    omega
  | ⟨2, _⟩ =>
    show win0_3.index ⟨(i 0).val / 2, hN⟩ (2 : Fin 3) * 512 ≤ (i 2).val
      ∧ (i 2).val < win0_3.index ⟨(i 0).val / 2, hN⟩ (2 : Fin 3) * 512 + 512
    omega

/-! ## The array after the run, and the run -/

/-- THE RESULT ARRAY after the run is `Spec.states` of the argument arrays. -/
theorem final (c : Dev nD) :
    (dats m 0 c).arrAt 3 cfg0.N
      = Cert.Spec.states (m ((c : Thread nD τ).loc main_arg0)) (m ((c : Thread nD τ).loc main_arg2))
          (m ((c : Thread nD τ).loc main_arg3)) :=
  (dats m 0 c).arrAt_eq_of_cover 3 _ (fun t _ => flushed_eq m c t) cover

/-- Every weakly fair execution of the kernel program terminates with the result at `Spec.states` of the arguments and
    the arguments unchanged. -/
theorem run : θ_run defs (onTc (τ := τ) (main (F := Ideal))) ⟨m, fun _ => 0, ρ⟩ fun r => ∀ c : Dev nD,
      r.2.mem ((c : Thread nD τ).loc main_v1)
        = Cert.Spec.states (m ((c : Thread nD τ).loc main_arg0)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.LibScatterSet.lean ====
/-
  A scatter whose combining body returns the update (jnp's `x.at[…].set(v)`), read as a whole array.

  The host's scatter is a left fold over the update indices in row-major order: each update that lands
  inside the operand replaces the element at its result index, an update that lands outside is dropped.
  When the body is "return the update", the value of an element after the fold is the operand's, unless
  some update landed on it, and then it is an update that did. So the scatter equals any array `G` such that
  every landing update agrees with `G` at its result index, and `G` is the operand wherever no update lands.
  Nothing is asked about the order of the updates or about two updates landing on one element: if they do,
  the first hypothesis says they carry the same value there.
-/
import Idealize.ShloMosaic.PureOps.ShapeOps

namespace Idealize.ShloMosaic.ScatterSet

variable {α : Type} {s si u : Shape} {w : Nat}

/-- One step of the fold: the update with row-major number `n` overwrites the element it lands on. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a "return the update" body is the fold of that step. -/
theorem scatter_eq_foldl (d : ScatterDims s si u) (x : s.Idx → α) (idx : IVec si w) (upd : u.Idx → α) :
    Host.scatter d (fun _ b => b) x idx upd = (List.finRange u.numel).foldl (step d idx upd) x := rfl

theorem step_some (d : ScatterDims s si u) (idx : IVec si w) (upd : u.Idx → α) (r : s.Idx → α) (n : Fin u.numel)
    {i : s.Idx} (h : d.resultIdx? (u.rowMajor.symm n) idx = some i) (i' : s.Idx) :
    step d idx upd r n i' = if i' = i then upd (u.rowMajor.symm n) else r i' := by
  unfold step; rw [h]

theorem step_none (d : ScatterDims s si u) (idx : IVec si w) (upd : u.Idx → α) (r : s.Idx → α) (n : Fin u.numel)
    (h : d.resultIdx? (u.rowMajor.symm n) idx = none) : step d idx upd r n = r := by
  unfold step; rw [h]

/-- The fold's invariant. Every element is already `G`'s, or is still the operand's and none of the updates
    taken so far (those of `S`, then those of the list) landed on it. -/
theorem foldl_inv (d : ScatterDims s si u) (x : s.Idx → α) (idx : IVec si w) (upd : u.Idx → α) (G : s.Idx → α)
    (hit : ∀ (j : u.Idx) (i : s.Idx), d.resultIdx? j idx = some i → G i = upd j) :
    ∀ (l : List (Fin u.numel)) (r : s.Idx → α) (S : Fin u.numel → Prop),
      (∀ i, r i = G i ∨ (r i = x i ∧ ∀ n, S n → d.resultIdx? (u.rowMajor.symm n) idx ≠ some i)) →
      ∀ i, l.foldl (step d idx upd) r i = G i ∨
        (l.foldl (step d idx upd) r i = x i ∧ ∀ n, (S n ∨ n ∈ l) → d.resultIdx? (u.rowMajor.symm n) idx ≠ some i) := by
  intro l
  induction l with
  | nil =>
    intro r S h i
    rcases h i with h | ⟨h1, h2⟩
    · exact .inl h
    · exact .inr ⟨h1, fun n hn => h2 n (hn.resolve_right (List.not_mem_nil))⟩
  | cons a l ih =>
    intro r S h i
    rw [List.foldl_cons]
    have hstep : ∀ i', step d idx upd r a i' = G i' ∨
        (step d idx upd r a i' = x i' ∧ ∀ n, (S n ∨ n = a) → d.resultIdx? (u.rowMajor.symm n) idx ≠ some i') := by
      intro i'
      cases hres : d.resultIdx? (u.rowMajor.symm a) idx with
      | none =>
        rw [step_none d idx upd r a hres]
        rcases h i' with h | ⟨h1, h2⟩
        · exact .inl h
        · refine .inr ⟨h1, fun n hn => ?_⟩
          rcases hn with hn | rfl
          · exact h2 n hn
          · rw [hres]; exact fun e => nomatch e
      | some i0 =>
        rw [step_some d idx upd r a hres i']
        by_cases hi : i' = i0
        · rw [if_pos hi, hi]
          exact .inl (hit _ _ hres).symm
        · rw [if_neg hi]
          rcases h i' with h | ⟨h1, h2⟩
          · exact .inl h
          · refine .inr ⟨h1, fun n hn => ?_⟩
            rcases hn with hn | rfl
            · exact h2 n hn
            · rw [hres]; exact fun e => hi (Option.some.inj e).symm
    rcases ih (step d idx upd r a) (fun n => S n ∨ n = a) hstep i with h | ⟨h1, h2⟩
    · exact .inl h
    · refine .inr ⟨h1, fun n hn => h2 n ?_⟩
      rcases hn with hn | hn
      · exact .inl (.inl hn)
      · rcases List.mem_cons.mp hn with rfl | hn
        · exact .inl (.inr rfl)
        · exact .inr hn

/-- THE SCATTER AS ONE ARRAY: it is `G`, when every update that lands agrees with `G` where it lands (`hit`) and
    `G` is the operand wherever nothing lands (`miss`). -/
theorem scatter_set_eq (d : ScatterDims s si u) (x : s.Idx → α) (idx : IVec si w) (upd : u.Idx → α) (G : s.Idx → α)
    (hit : ∀ (j : u.Idx) (i : s.Idx), d.resultIdx? j idx = some i → G i = upd j)
    (miss : ∀ i : s.Idx, (∀ j : u.Idx, d.resultIdx? j idx ≠ some i) → G i = x i) :
    Host.scatter d (fun _ b => b) x idx upd = G := by
  rw [scatter_eq_foldl]
  funext i
  rcases foldl_inv d x idx upd G hit (List.finRange u.numel) x (fun _ => False)
      (fun i => .inr ⟨rfl, fun _ hn => hn.elim⟩) i with h | ⟨h1, h2⟩
  · exact h
  · rw [h1]
    refine (miss i fun j => ?_).symm
    have := h2 (u.rowMajor j) (.inr (List.mem_finRange _))
    rwa [Equiv.symm_apply_apply] at this

end Idealize.ShloMosaic.ScatterSet
-- ==== Proof.RefValue.lean ====
/-
  The reference's result is `Spec.states` of its arguments.

  The reference computes the whole array α · max (u ·ₖ w + noise, 0) and then scatters a [64, 512] array of zeros
  into it at the one start index 0 of the time axis: update (b, n) lands on (b, 0, n). So an element at time 0 is
  hit by exactly the update (b, n) and becomes 0, and an element at a later time is hit by no update and keeps the
  value computed before the scatter. The first part reads the scatter's dimension numbers (where update (b, n) lands),
  the second reads the operations before the scatter one at a time.
-/
import proofs.«162567_j27453430956109_2_alg».proof.Proof.Gen.ReferenceIdeal.Read
import proofs.«162567_j27453430956109_2_alg».proof.Proof.Spec
import proofs.«162567_j27453430956109_2_alg».proof.Proof.LibScatterSet

noncomputable section

open scoped BigOperators

namespace Cert.ReferenceIdeal.RefValue

open Cert.ReferenceIdeal Cert.ReferenceIdeal.Gen Cert.ReferenceIdeal.Read
open Idealize.ShloMosaic Idealize.ShloMosaic.ValueIdx

local notation "scat" => scatter_S64x1024x512_S1_S64x512_01_1_1_0

/-! ## Where an update lands -/

/-- The start index is the zero word, so every window starts at 0 on every axis. -/
theorem start_eq (j : S64x512.Idx) (a : Fin S64x1024x512.rank) :
    ScatterDims.start scat j (val_main_v5 (F := Ideal)) a = 0 := by
  unfold ScatterDims.start
  split
  · rw [val_main_v5_apply, val_main_c_apply]; rfl
  · rfl

/-- The window coordinate: the update's batch on axis 0, nothing on the inserted time axis, its unit on axis 2. -/
theorem window_0 (j : S64x512.Idx) : ScatterDims.window scat j 0 = (j 0).val := by
  unfold ScatterDims.window
  rw [dif_pos (show (0 : Fin S64x1024x512.rank) ∈ ScatterDims.sKept scat by decide)]
  rfl
theorem window_1 (j : S64x512.Idx) : ScatterDims.window scat j 1 = 0 := by
  unfold ScatterDims.window
  rw [dif_neg (show ¬(1 : Fin S64x1024x512.rank) ∈ ScatterDims.sKept scat by decide)]
theorem window_2 (j : S64x512.Idx) : ScatterDims.window scat j 2 = (j 1).val := by
  unfold ScatterDims.window
  rw [dif_pos (show (2 : Fin S64x1024x512.rank) ∈ ScatterDims.sKept scat by decide)]
  rfl

/-- Update (b, n) lands on (b, 0, n), inside the operand. -/
theorem lands (j : S64x512.Idx) :
    ScatterDims.resultIdx? scat j (val_main_v5 (F := Ideal)) = some (ix3 (j 0) (⟨0, by decide⟩ : Fin 1024) (j 1)) := by
  have h0 : (j 0).val < 64 := (j 0).isLt
  have h1 : (j 1).val < 512 := (j 1).isLt
  have hb : ∀ a, 0 ≤ ScatterDims.start scat j (val_main_v5 (F := Ideal)) a + ScatterDims.window scat j a
      ∧ ScatterDims.start scat j (val_main_v5 (F := Ideal)) a + ScatterDims.window scat j a < S64x1024x512.size a := by
    intro a
    rw [start_eq]
    match a with
    | ⟨0, _⟩ => rw [show ScatterDims.window scat j ⟨0, _⟩ = (j 0).val from window_0 j]; show 0 ≤ (0 : Int) + ((j 0).val : Int) ∧ (0 : Int) + ((j 0).val : Int) < (64 : Nat); omega
    | ⟨1, _⟩ => rw [show ScatterDims.window scat j ⟨1, _⟩ = 0 from window_1 j]; show 0 ≤ (0 : Int) + ((0 : Nat) : Int) ∧ (0 : Int) + ((0 : Nat) : Int) < (1024 : Nat); omega
    | ⟨2, _⟩ => rw [show ScatterDims.window scat j ⟨2, _⟩ = (j 1).val from window_2 j]; show 0 ≤ (0 : Int) + ((j 1).val : Int) ∧ (0 : Int) + ((j 1).val : Int) < (512 : Nat); omega
  unfold ScatterDims.resultIdx?
  rw [dif_pos hb]
  congr 1
  funext a
  apply Fin.ext
  show (ScatterDims.start scat j (val_main_v5 (F := Ideal)) a + ScatterDims.window scat j a).toNat = _
  rw [start_eq]
  match a with
  | ⟨0, _⟩ => rw [show ScatterDims.window scat j ⟨0, _⟩ = (j 0).val from window_0 j]; show ((0 : Int) + ((j 0).val : Int)).toNat = (j 0).val; omega
  | ⟨1, _⟩ => rw [show ScatterDims.window scat j ⟨1, _⟩ = 0 from window_1 j]; show ((0 : Int) + ((0 : Nat) : Int)).toNat = 0; omega
  | ⟨2, _⟩ => rw [show ScatterDims.window scat j ⟨2, _⟩ = (j 1).val from window_2 j]; show ((0 : Int) + ((j 1).val : Int)).toNat = (j 1).val; omega

/-! ## Before the scatter: the cell's value at every index -/

theorem before_scatter (x0 : (⟨S64x1024x6, .f32⟩ : BufTy).Contents (Elt Ideal)) (x2 : (⟨S512x6, .f32⟩ : BufTy).Contents (Elt Ideal))
    (x3 : (⟨S64x1024x512, .f32⟩ : BufTy).Contents (Elt Ideal)) (i : S64x1024x512.Idx) :
    val_main_v4 (F := Ideal) x0 x2 x3 i = Cert.Spec.cell x0 x2 x3 i := by
  have el : ∀ k : Fin 6, lidx_main_v0 i k = ix3 (i 0) (i 1) k := fun k =>
    funext fun a => Fin.ext (by match a with | ⟨0, _⟩ => rfl | ⟨1, _⟩ => rfl | ⟨2, _⟩ => rfl)
  have er : ∀ k : Fin 6, ridx_main_v0 i k = ix2 (i 2) k := fun k =>
    funext fun a => Fin.ext (by match a with | ⟨0, _⟩ => rfl | ⟨1, _⟩ => rfl)
  rw [val_main_v4_apply, val_main_v3_apply, val_main_cst_apply, val_main_v2_apply, val_main_v1_apply, val_main_v0_apply,
    val_main_call0_v0_apply, val_main_call0_cst_apply]
  simp only [el, er]
  rfl

/-! ## The reference's result -/

/-- The scatter of zeros at time 0 into the cell values is `Spec.states`. -/
theorem result_eq (x0 : (⟨S64x1024x6, .f32⟩ : BufTy).Contents (Elt Ideal)) (x2 : (⟨S512x6, .f32⟩ : BufTy).Contents (Elt Ideal))
    (x3 : (⟨S64x1024x512, .f32⟩ : BufTy).Contents (Elt Ideal)) :
    val_main_v7 (F := Ideal) x0 x2 x3 = Cert.Spec.states x0 x2 x3 := by
  unfold val_main_v7
  refine ScatterSet.scatter_set_eq _ _ _ _ _ (fun j i h => ?_) (fun i h => ?_)
  · -- an update lands at time 0, where the states are zero, and the update is zero
    rw [lands j] at h
    obtain rfl := Option.some.inj h
    rw [val_main_v6_apply, val_main_cst_0_apply]
    exact Cert.Spec.states_zero x0 x2 x3 _ rfl
  · -- an index nothing lands on is at a later time
    have ht : (i 1).val ≠ 0 := fun h0 => h (ix2 (i 0) (i 2)) (by
      rw [lands]
      congr 1
      funext a
      apply Fin.ext
      match a with
      | ⟨0, _⟩ => rfl
      | ⟨1, _⟩ => exact h0.symm
      | ⟨2, _⟩ => rfl)
    rw [Cert.Spec.states_pos x0 x2 x3 i ht, before_scatter]

end Cert.ReferenceIdeal.RefValue

end
-- ==== Proof.lean ====
/-
  The kernel and its reference compute the same array over the extended reals.

  Both programs take `u : [64, 1024, 6]`, recurrent weights that neither uses, input weights `w : [512, 6]` and
  `noise : [64, 1024, 512]`, and return the states of a rectified recurrent layer whose recurrent term is
  identically zero: at (b, t, n)

      0                                                        when t = 0
      α · max (∑ₖ u[b, t, k] · w[n, k] + noise[b, t, n], 0)    when t ≥ 1

  (`Spec.states`; α is the f32 word nearest 0.2, the same word in both programs).

  The kernel transposes the weights on the host, then runs a grid of 32 points, two batches each: per batch one
  [1024, 6] × [6, 512] product into a zero accumulator, plus the noise, rectified, scaled, stored whole; then a row of
  zeros stored over time 0 of each batch. Newest store wins, so the block is zero at time 0 and the cell's value
  later (the block module); a point's block is the block of `Spec.states` at its two batches, and the 32 blocks
  cover the array (the array module).

  The reference contracts `u` with `w` over the feature axis, adds the noise, rectifies, scales, and scatters a
  [64, 512] array of zeros at time 0. An update lands exactly on (b, 0, n), so the scatter zeroes time 0 and leaves
  every later time as computed (the reference module, over a general lemma on a scatter whose body returns the update).

  The two six-term sums run over the same products; only commutativity and associativity on the extended reals are
  involved, so the precondition (finite inputs) is not opened. Reading the kernel over the extended reals rewrote no
  operation, so there is nothing to preserve. The three frames are the generated ones: the two kernel programs' frame theorems, and the
  reference's run with its result dropped.
-/
import proofs.«162567_j27453430956109_2_alg».proof.Defs
import proofs.«162567_j27453430956109_2_alg».proof.Proof.Gen.Kernel
import proofs.«162567_j27453430956109_2_alg».proof.Proof.Gen.Kernel.Frame
import proofs.«162567_j27453430956109_2_alg».proof.Proof.Gen.KernelIdeal
import proofs.«162567_j27453430956109_2_alg».proof.Proof.Gen.KernelIdeal.Frame
import proofs.«162567_j27453430956109_2_alg».proof.Proof.Gen.KernelIdeal.Value
import proofs.«162567_j27453430956109_2_alg».proof.Proof.Gen.ReferenceIdeal
import proofs.«162567_j27453430956109_2_alg».proof.Proof.Gen.ReferenceIdeal.Run
import proofs.«162567_j27453430956109_2_alg».proof.Proof.Gen.ReferenceIdeal.Read
import proofs.«162567_j27453430956109_2_alg».proof.Proof.Gen.Pre_finite_inputs
import proofs.«162567_j27453430956109_2_alg».proof.Proof.KernelArray
import proofs.«162567_j27453430956109_2_alg».proof.Proof.RefValue

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories that agree on the arguments, both programs end with `Spec.states` of those arguments. -/
theorem algebraic : Cert.algebraic_KernelIdeal_ReferenceIdeal := by
  intro m ρ m' ρ' _ hagree
  refine ⟨fun c => Cert.Spec.states (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
